-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x1 : Shape := ⟨2, ![100000, 1]⟩
abbrev S100000x65 : Shape := ⟨2, ![100000, 65]⟩
abbrev S1x64 : Shape := ⟨2, ![1, 64]⟩
abbrev S5000x65 : Shape := ⟨2, ![5000, 65]⟩
abbrev S5000x64 : Shape := ⟨2, ![5000, 64]⟩
abbrev S5000x1 : Shape := ⟨2, ![5000, 1]⟩

abbrev nBuf : Space → Nat
  | .hbm => 35
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .i32⟩
  | .hbm, ⟨12, _⟩ => ⟨S1700000, .i32⟩
  | .hbm, ⟨13, _⟩ => ⟨S1700000, .i1⟩
  | .hbm, ⟨14, _⟩ => ⟨S_, .i32⟩
  | .hbm, ⟨15, _⟩ => ⟨S1700000, .i32⟩
  | .hbm, ⟨16, _⟩ => ⟨S1700000, .i32⟩
  | .hbm, ⟨17, _⟩ => ⟨S1700000, .i32⟩
  | .hbm, ⟨18, _⟩ => ⟨S1700000x1, .i32⟩
  | .hbm, ⟨19, _⟩ => ⟨S1700000x64, .f32⟩
  | .hbm, ⟨20, _⟩ => ⟨S_, .f32⟩
  | .hbm, ⟨21, _⟩ => ⟨S100000x64, .f32⟩
  | .hbm, ⟨22, _⟩ => ⟨S1700000x1, .i32⟩
  | .hbm, ⟨23, _⟩ => ⟨S100000x64, .f32⟩
  | .hbm, ⟨24, _⟩ => ⟨S_, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S100000x1, .f32⟩
  | .hbm, ⟨31, _⟩ => ⟨S100000x65, .f32⟩
  | .hbm, ⟨32, _⟩ => ⟨S64x64, .f32⟩
  | .hbm, ⟨33, _⟩ => ⟨S1x64, .f32⟩
  | .hbm, ⟨34, _⟩ => ⟨S100000x64, .f32⟩
  | .local _ .vmem, ⟨0, _⟩ => ⟨S5000x65, .f32⟩
  | .local _ .vmem, ⟨1, _⟩ => ⟨S5000x65, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x1_S100000x65_d1 : Shape.Concatenates [S100000x64, S100000x1] S100000x65 1
  transposes_S64x64_S64x64_1_0 : S64x64.Transposes [1, 0] S64x64
  shapeCasts_S64_S1x64 : S64.ShapeCasts S1x64
  inb_S5000x65_S5000x64_0_0 : ∀ a, (![0, 0] : Fin 2 → Nat) a + S5000x64.size a ≤ S5000x65.size a
  h_S5000x64 : 0 < S5000x64.numel
  shapeCasts_S5000x64_S5000x64 : S5000x64.ShapeCasts S5000x64
  inb_S5000x65_S5000x1_0_64 : ∀ a, (![0, 64] : Fin 2 → Nat) a + S5000x1.size a ≤ S5000x65.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S100000_S1700000x1_S1700000_n_0_0_1_wf : ScatterDims.WF S100000 S1700000x1 S1700000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x65.size a ≤ S100000x65.size a
  hwx0_0 : ∀ i : grid0.Coords, EltTy.bits .f32 = 32 ∨ (Rect.block (s := S100000x65) S5000x65.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x1 : Shape := ⟨2, ![100000, 1]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .i32⟩
  | .hbm, ⟨12, _⟩ => ⟨S1700000, .i32⟩
  | .hbm, ⟨13, _⟩ => ⟨S1700000, .i1⟩
  | .hbm, ⟨14, _⟩ => ⟨S_, .i32⟩
  | .hbm, ⟨15, _⟩ => ⟨S1700000, .i32⟩
  | .hbm, ⟨16, _⟩ => ⟨S1700000, .i32⟩
  | .hbm, ⟨17, _⟩ => ⟨S1700000, .i32⟩
  | .hbm, ⟨18, _⟩ => ⟨S1700000x1, .i32⟩
  | .hbm, ⟨19, _⟩ => ⟨S1700000x64, .f32⟩
  | .hbm, ⟨20, _⟩ => ⟨S_, .f32⟩
  | .hbm, ⟨21, _⟩ => ⟨S100000x64, .f32⟩
  | .hbm, ⟨22, _⟩ => ⟨S1700000x1, .i32⟩
  | .hbm, ⟨23, _⟩ => ⟨S100000x64, .f32⟩
  | .hbm, ⟨24, _⟩ => ⟨S_, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S100000_S1700000x1_S1700000_n_0_0_1_wf : ScatterDims.WF S100000 S1700000x1 S1700000 [] [0] [0] 1
  dot_S100000x64_S64x64_S100000x64_1_0_0_1_n_n_wf : DotDims.WF S100000x64 S64x64 S100000x64 [1] [0] [0] [1] [] []

variable [Facts₀]

def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The function both programs compute, stated once over plain arrays of extended reals.

  A graph-convolution layer: row `r` of the aggregated features `A` (a [100000, 64] array) is scaled by the
  inverse square root of the row's clamped degree `max (D r) 1` and then multiplied by the transposed weight
  matrix, with the bias added:

      out (r, q) = (∑ k, (A (r, k) · (max (D r) 1)^(-1/2)) · W (q, k)) + b q.

  One program spells the scale as the reciprocal square root, the other as the power with exponent -1/2. On the
  extended reals the two agree at every positive argument and at +∞ (both 0); they differ only at 0 and below,
  which the clamp against 1 excludes. That is the one law of this module (`rsqrt_eq_pow`), together with the two
  float words it needs as real numbers: 1.0 is 1 and -0.5 is -1/2.
-/
import Idealize.ShloMosaic.PureOps.Ideal
import Idealize.ShloMosaic.Lib.ValueIdx

noncomputable section

namespace Cert.NormLin

open Idealize.ShloMosaic Idealize.ShloMosaic.ValueIdx

/-- The float word of 1.0 denotes the extended real 1. -/
theorem one_word : Ideal.ofBits .f32 0x3F800000#32 = 1 := by
  simp [Ideal.ofBits, Ideal.ieee, -EReal.coe_mul]; norm_num

/-- The float word of -0.5 denotes the real -1/2. -/
theorem neg_half_word : Ideal.ofBits .f32 0xBF000000#32 = ((-(1 / 2) : ℝ) : EReal) := by
  simp [Ideal.ofBits, Ideal.ieee, -EReal.coe_mul]; norm_num

/-- At a positive extended real the reciprocal square root is the power with exponent -1/2: on a positive real
    `(√y)⁻¹ = y^(-1/2)`, and at +∞ both are 0. -/
theorem rsqrt_eq_pow (y : EReal) (hy : 0 < y) : Ideal.rsqrt y = Ideal.pow y ((-(1 / 2) : ℝ) : EReal) := by
  induction y using EReal.rec with
  | bot => exact absurd hy (not_lt_bot)
  | top =>
    rw [Ideal.rsqrt_top, Ideal.pow_top]
    have h1 : ¬ (0 : EReal) < ((-(1 / 2) : ℝ) : EReal) := by
      rw [not_lt]; exact_mod_cast (by norm_num : (-(1 / 2) : ℝ) ≤ 0)
    have h2 : ¬ ((-(1 / 2) : ℝ) : EReal) = 0 := by
      intro h; have : (-(1 / 2) : ℝ) = 0 := by exact_mod_cast h
      norm_num at this
    rw [if_neg h1, if_neg h2]
  | coe r =>
    have hr : 0 < r := by exact_mod_cast hy
    rw [Ideal.rsqrt_coe, Ideal.pow_coe_coe, if_neg (not_lt.2 hr.le), if_neg hr.ne']
    congr 1
    show (Real.sqrt r)⁻¹ = r ^ (-(1 / 2) : ℝ)
    rw [Real.sqrt_eq_rpow, Real.rpow_neg hr.le]

/-- So the two spellings of the degree scale agree: the clamp puts the argument at or above 1. -/
theorem scale_eq (d : EReal) :
    Ideal.rsqrt (max d (Ideal.ofBits .f32 0x3F800000#32))
      = Ideal.pow (max (Ideal.ofBits .f32 0x3F800000#32) d) (Ideal.ofBits .f32 0xBF000000#32) := by
  rw [neg_half_word, max_comm d, rsqrt_eq_pow]
  rw [one_word]
  exact lt_of_lt_of_le zero_lt_one (le_max_left _ _)

/-- Entry (r, q) of the layer's output from the aggregated features, the degrees, the weight and the bias. -/
def normLinAt (A : (⟨2, ![100000, 64]⟩ : Shape).Idx → EReal) (D : (⟨1, ![100000]⟩ : Shape).Idx → EReal)
    (W : (⟨2, ![64, 64]⟩ : Shape).Idx → EReal) (b : (⟨1, ![64]⟩ : Shape).Idx → EReal)
    (r : Fin 100000) (q : Fin 64) : EReal :=
  (∑ k : Fin 64, (A (ix2 r k) * Ideal.rsqrt (max (D (ix1 r)) (Ideal.ofBits .f32 0x3F800000#32))) * W (ix2 q k))
    + b (ix1 q)

/-- The layer's output array. -/
def normLin (A : (⟨2, ![100000, 64]⟩ : Shape).Idx → EReal) (D : (⟨1, ![100000]⟩ : Shape).Idx → EReal)
    (W : (⟨2, ![64, 64]⟩ : Shape).Idx → EReal) (b : (⟨1, ![64]⟩ : Shape).Idx → EReal) :
    (⟨2, ![100000, 64]⟩ : Shape).Idx → EReal :=
  fun i => normLinAt A D W b (i 0) (i 1)

end Cert.NormLin

end
-- ==== Proof.KernelPayload.lean ====
/-
  What the kernel body computes from one block, read at one entry.

  The body holds a [5000, 65] block `x` (64 feature columns and the degree in column 64, loaded as two pieces),
  the [64, 64] transposed weight `w` and the [1, 64] bias row `b`. Entry (p, q) of what it stores is

      (∑ k, (x (p, k) · (max (x (p, 64)) 1)^(-1/2)) · w (k, q)) + b (0, q):

  the degree column is clamped and inverted pointwise, broadcast along the row, multiplied in; the rounding of
  both matmul operands to bf16 is the identity on extended reals; the matrix product into a zero accumulator is
  the plain sum over the contracted axis; the bias row is broadcast down the rows.
-/
import proofs.«128853_j47064251629851_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx

/-- A [5000, 1] column broadcast to [5000, 64] reads, at (p, k), the column's entry in row p. -/
theorem column_bcast_at (v : (⟨2, ![5000, 1]⟩ : Shape).Idx → EReal)
    (h : (⟨2, ![5000, 1]⟩ : Shape).Broadcasts ⟨2, ![5000, 64]⟩) (p : Fin 5000) (k : Fin 64) :
    broadcastTo ⟨2, ![5000, 64]⟩ v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- Coordinates of the contraction's operand indices at output index i and contraction index c: the left operand
    is read at row `i 0`, column c; the right at row c, column `i 1`. -/
theorem lhs_row (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs_col (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
theorem rhs_row (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
theorem rhs_col (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The matrix product into the zero accumulator, at entry (p, q): the sum over k of row p of the left operand
    against column q of the right. -/
theorem matmul_at (l : FVec Ideal S5000x64 .bf16) (w : FVec Ideal S64x64 .bf16) (p : Fin 5000) (q : Fin 64) :
    matmul (F := Ideal) dot_S5000x64_S64x64_S5000x64_1_0_0_1_n_n none l w (constant (F := Ideal) S5000x64 .f32 0x00000000#32) (ix2 p q)
      = ∑ k : Fin 64, l (ix2 p k) * w (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The body's stored value at entry (p, q) of the block. -/
theorem pay_at (v0 : Vec Ideal S5000x64 .f32) (v2 : Vec Ideal S5000x1 .f32) (v10 : Vec Ideal S64x64 .f32)
    (v14 : Vec Ideal S1x64 .f32) (p : Fin 5000) (q : Fin 64) :
    k0_pay1 (F := Ideal) v0 v2 v10 v14 (ix2 p q)
      = (∑ k : Fin 64, (v0 (ix2 p k) * Ideal.rsqrt (max (v2 (ix2 p (0 : Fin 1))) (Ideal.ofBits .f32 0x3F800000#32)))
          * v10 (ix2 k q)) + v14 (ix2 (0 : Fin 1) q) := by
  unfold k0_pay1
  rw [shapeCast_self, shapeCast_self, shapeCast_self, shapeCast_self, addf_apply, matmul_at,
    broadcastTo_1b_ab_apply]
  refine congrArg₂ (· + ·) (Finset.sum_congr rfl fun k _ => ?_) rfl
  rw [truncf_apply, truncf_apply, mulf_apply, column_bcast_at]
  rfl

end Cert.KernelIdeal.Payload

end
-- ==== Proof.KernelBlock.lean ====
/-
  One entry of what the kernel body leaves, from the blocks it is handed.

  If the packed block `x0` is rows 5000·n .. 5000·n + 4999 of an array whose columns below 64 are the features `A`
  and whose column 64 is the degree `D`, the weight block is the weight `W` transposed and the bias block is the
  bias `b` as a row, then entry (p, q) of the body's result is entry (5000·n + p, q) of the layer's output: the
  body's two loads of the packed block read columns 0..63 and column 64, its other loads read the whole blocks.
-/
import proofs.«128853_j47064251629851_1_alg».proof.Proof.Gen.KernelIdeal.Frame
import proofs.«128853_j47064251629851_1_alg».proof.Proof.Spec
import proofs.«128853_j47064251629851_1_alg».proof.Proof.KernelPayload

noncomputable section

namespace Cert.KernelIdeal.KernelBlock

open Cert.KernelIdeal Cert.KernelIdeal.Gen Cert.KernelIdeal.Payload
open Idealize.ShloMosaic Idealize.ShloMosaic.ValueIdx Cert.NormLin

theorem zero_offsets : (![0, 0] : Fin 2 → Nat) = fun _ => 0 := funext fun a => by fin_cases a <;> rfl

/-- Entry (p, q) of what the body leaves from blocks `x0`, `x1`, `x2`, when `x0` is rows 5000·n .. of an array
    whose columns below 64 are `A` and whose column 64 is `D`, `x1` is `W` transposed and `x2` is `b` as a row:
    entry (5000·n + p, q) of the layer's output. -/
theorem block_entry (X : S100000x65.Idx → EReal) (Wt : S64x64.Idx → EReal) (Br : S1x64.Idx → EReal)
    (A : S100000x64.Idx → EReal) (D : S100000.Idx → EReal) (W : S64x64.Idx → EReal) (b : S64.Idx → EReal)
    (hA : ∀ (r : Fin 100000) (k : Fin 64) (k' : Fin 65), k'.val = k.val → X (ix2 r k') = A (ix2 r k))
    (hD : ∀ (r : Fin 100000) (k' : Fin 65), k'.val = 64 → X (ix2 r k') = D (ix1 r))
    (hW : ∀ k q : Fin 64, Wt (ix2 k q) = W (ix2 q k))
    (hb : ∀ q : Fin 64, Br (ix2 (0 : Fin 1) q) = b (ix1 q))
    (x0 : Vec Ideal S5000x65 .f32) (x1 : Vec Ideal S64x64 .f32) (x2 : Vec Ideal S1x64 .f32)
    (n : Nat) (hn : n < 20)
    (h0 : ∀ (p : Fin 5000) (k' : Fin 65), x0 (ix2 p k') = X (ix2 (⟨n * 5000 + p.val, by omega⟩ : Fin 100000) k'))
    (h1 : ∀ k q : Fin 64, x1 (ix2 k q) = Wt (ix2 k q)) (h2 : ∀ q : Fin 64, x2 (ix2 (0 : Fin 1) q) = Br (ix2 (0 : Fin 1) q))
    (p : Fin 5000) (q : Fin 64) :
    out0_3 (F := Ideal) x0 x1 x2 (ix2 p q) = normLinAt A D W b (⟨n * 5000 + p.val, by omega⟩ : Fin 100000) q := by
  unfold out0_3
  rw [View.canon_unit_zero zero_offsets, pay_at]
  unfold normLinAt
  have eD : View.ld x0 r0_1 (ix2 p (0 : Fin 1)) = D (ix1 (⟨n * 5000 + p.val, by omega⟩ : Fin 100000)) := by
    show x0 (r0_1.idx (ix2 p (0 : Fin 1))) = _
    rw [show r0_1.idx (ix2 p (0 : Fin 1)) = ix2 p (⟨64, by omega⟩ : Fin 65) from funext fun a => Fin.ext (by
      match a with
      | ⟨0, _⟩ => show 0 + 1 * p.val = p.val; omega
      | ⟨1, _⟩ => show 64 + 1 * 0 = 64; omega), h0]
    exact hD _ _ rfl
  have eB : View.ld x2 r0_3 (ix2 (0 : Fin 1) q) = b (ix1 q) := by
    show x2 (r0_3.idx (ix2 (0 : Fin 1) q)) = _
    rw [show r0_3.idx (ix2 (0 : Fin 1) q) = ix2 (0 : Fin 1) q from funext fun a => Fin.ext (by
      match a with
      | ⟨0, _⟩ => show 0 + 1 * 0 = 0; omega
      | ⟨1, _⟩ => show 0 + 1 * q.val = q.val; omega), h2, hb]
  rw [eD, eB]
  refine congrArg₂ (· + ·) (Finset.sum_congr rfl fun k _ => ?_) rfl
  have eA : View.ld x0 r0_0 (ix2 p k) = A (ix2 (⟨n * 5000 + p.val, by omega⟩ : Fin 100000) k) := by
    show x0 (r0_0.idx (ix2 p k)) = _
    rw [show r0_0.idx (ix2 p k) = ix2 p (⟨k.val, by omega⟩ : Fin 65) from funext fun a => Fin.ext (by
      match a with
      | ⟨0, _⟩ => show 0 + 1 * p.val = p.val; omega
      | ⟨1, _⟩ => show 0 + 1 * k.val = k.val; omega), h0]
    exact hA _ k _ rfl
  have eW : View.ld x1 r0_2 (ix2 k q) = W (ix2 q k) := by
    show x1 (r0_2.idx (ix2 k q)) = _
    rw [show r0_2.idx (ix2 k q) = ix2 k q from funext fun a => Fin.ext (by
      match a with
      | ⟨0, _⟩ => show 0 + 1 * k.val = k.val; omega
      | ⟨1, _⟩ => show 0 + 1 * q.val = q.val; omega), h1, hW]
  rw [eA, eW]

end Cert.KernelIdeal.KernelBlock

end
-- ==== Proof.KernelHost.lean ====
/-
  The three arrays the kernel's windows read, as the host operations before the launch leave them.

  The block window reads the packed array: the aggregated features (a gather of the vertex rows by edge source,
  scatter-added by edge destination) in columns 0..63 and the degree (ones scatter-added by edge destination) as
  column 64. The other two windows read the weight transposed and the bias as one row. Each is the operations'
  composed term of the argument arrays; the packed array, the transposed weight and the bias row are then read
  at an index: columns below 64 are the features, column 64 is the degree, the transposed weight at (k, q) is the
  weight at (q, k), and the bias row at (0, q) is the bias at q.
-/
import proofs.«128853_j47064251629851_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

/-- The aggregated features: vertex rows gathered by edge source (with every vertex its own source once more),
    scatter-added into the rows named by edge destination. -/
def agg (x0 : (⟨S100000x64, .f32⟩ : BufTy).Contents (Elt Ideal)) (x1 : (⟨S2x1600000, .i32⟩ : BufTy).Contents (Elt Ideal)) :
    (⟨S100000x64, .f32⟩ : BufTy).Contents (Elt Ideal) :=
  (Host.scatterAdd scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 (concatenate S1700000 0 [⟨S1600000, (shapeCast _ (extractStridedSlice S1x1600000 ![0, 0] (x1) slices_S2x1600000_S1x1600000_0_0) shapeCasts_S1x1600000_S1600000)⟩, ⟨S100000, (iotaInDim S100000 32 0)⟩] concatenates_S1600000_S100000_S1700000_d0)) (Host.gather gather_S100000x64_S1700000x1_S1700000x64_1_0_n_n_0_1_164 (x0) (broadcastInDim S1700000x1 ![0] bcast_S1700000_S1700000x1_0 (select (cmpi .slt (concatenate S1700000 0 [⟨S1600000, (shapeCast _ (extractStridedSlice S1x1600000 ![1, 0] (x1) slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] (x1) slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] (x1) slices_S2x1600000_S1x1600000_1_0) shapeCasts_S1x1600000_S1600000)⟩, ⟨S100000, (iotaInDim S100000 32 0)⟩] concatenates_S1600000_S100000_S1700000_d0)))))

/-- The degrees: a one scatter-added per edge (and per vertex) into the entry named by edge destination. -/
def deg (x1 : (⟨S2x1600000, .i32⟩ : BufTy).Contents (Elt Ideal)) : (⟨S100000, .f32⟩ : BufTy).Contents (Elt Ideal) :=
  (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (concatenate S1700000 0 [⟨S1600000, (shapeCast _ (extractStridedSlice S1x1600000 ![0, 0] (x1) slices_S2x1600000_S1x1600000_0_0) shapeCasts_S1x1600000_S1600000)⟩, ⟨S100000, (iotaInDim S100000 32 0)⟩] concatenates_S1600000_S100000_S1700000_d0)) (broadcastInDim S1700000 ![] bcast_S_S1700000 (constant (F := Ideal) S_ .f32 0x3F800000#32)))

variable (m : (ℓ : Loc nD τ sig) → Buf (Elt Ideal) ℓ)

set_option maxRecDepth 8192 in
set_option maxHeartbeats 8000000 in
/-- The packed array the block window reads: features beside the degree column. -/
theorem packed_eq (c : Dev nD) :
    (V m c main_v22 : S100000x65.Idx → EReal)
      = concatenate S100000x65 1
          [⟨S100000x64, agg (m ((c.tc : Thread nD τ).loc main_arg0)) (m ((c.tc : Thread nD τ).loc main_arg1))⟩,
           ⟨S100000x1, broadcastInDim S100000x1 ![0] bcast_S100000_S100000x1_0 (deg (m ((c.tc : Thread nD τ).loc main_arg1)))⟩]
          concatenates_S100000x64_S100000x1_S100000x65_d1 := by
  dsimp only [V, hostOps0]; after_results <;> rfl

set_option maxRecDepth 8192 in
set_option maxHeartbeats 8000000 in
/-- The weight window reads the weight transposed. -/
theorem weightT_eq (c : Dev nD) :
    (V m c main_v23 : S64x64.Idx → EReal)
      = transpose S64x64 [1, 0] (m ((c.tc : Thread nD τ).loc main_arg2)) transposes_S64x64_S64x64_1_0 := by
  dsimp only [V, hostOps0]; after_results <;> rfl

set_option maxRecDepth 8192 in
set_option maxHeartbeats 8000000 in
/-- The bias window reads the bias as one row. -/
theorem biasRow_eq (c : Dev nD) :
    (V m c main_v24 : S1x64.Idx → EReal)
      = shapeCast S1x64 (m ((c.tc : Thread nD τ).loc main_arg3)) shapeCasts_S64_S1x64 := by
  dsimp only [V, hostOps0]; after_results <;> rfl

/-- A column below 64 of the packed array is that column of the features. -/
theorem packed_feature (A : S100000x64.Idx → EReal) (Dc : S100000x1.Idx → EReal) (r : Fin 100000) (k : Fin 64) (k' : Fin 65)
    (hk : k'.val = k.val) :
    concatenate S100000x65 1 [⟨S100000x64, A⟩, ⟨S100000x1, Dc⟩] concatenates_S100000x64_S100000x1_S100000x65_d1 (ix2 r k')
      = A (ix2 r k) :=
  concatenate_pair_apply_left 1 A Dc _ (ix2 r k') rfl (ix2 r k) (fun b => match b with
    | ⟨0, _⟩ => rfl
    | ⟨1, _⟩ => hk.symm)

/-- Column 64 of the packed array is the degree column. -/
theorem packed_degree (A : S100000x64.Idx → EReal) (Dc : S100000x1.Idx → EReal) (r : Fin 100000) (k' : Fin 65)
    (hk : k'.val = 64) :
    concatenate S100000x65 1 [⟨S100000x64, A⟩, ⟨S100000x1, Dc⟩] concatenates_S100000x64_S100000x1_S100000x65_d1 (ix2 r k')
      = Dc (ix2 r (0 : Fin 1)) :=
  concatenate_pair_apply_right 1 A Dc _ (ix2 r k') rfl rfl (ix2 r (0 : Fin 1)) (fun b hb => match b with
    | ⟨0, _⟩ => rfl
    | ⟨1, _⟩ => absurd rfl hb) (by show 0 + 64 = k'.val; omega)

/-- The degree column at row r is the degree of r. -/
theorem degree_column (D : S100000.Idx → EReal) (r : Fin 100000) :
    broadcastInDim S100000x1 ![0] bcast_S100000_S100000x1_0 D (ix2 r (0 : Fin 1)) = D (ix1 r) :=
  broadcastInDim_apply _ bcast_S100000_S100000x1_0 D (ix2 r (0 : Fin 1)) (ix1 r) (fun a => match a with
    | ⟨0, _⟩ => by show r.val = if (100000 : Nat) = 1 then 0 else r.val; rw [if_neg (by decide)])

/-- The bias row at (0, q) is the bias at q. -/
theorem bias_row (b : S64.Idx → EReal) (q : Fin 64) :
    shapeCast S1x64 b shapeCasts_S64_S1x64 (ix2 (0 : Fin 1) q) = b (ix1 q) :=
  shapeCast_a_1a_apply b shapeCasts_S64_S1x64 0 q

/-- The transposed weight at (k, q) is the weight at (q, k). -/
theorem weightT_at (W : S64x64.Idx → EReal) (k q : Fin 64) :
    transpose S64x64 [1, 0] W transposes_S64x64_S64x64_1_0 (ix2 k q) = W (ix2 q k) :=
  transpose_ix2_apply W transposes_S64x64_S64x64_1_0 k q

end Cert.KernelIdeal.HostValue

end
-- ==== Proof.KernelValue.lean ====
/-
  The kernel's result array after the run is the layer's output `normLin` of the aggregated features, the
  degrees, the weight and the bias.

  Grid point t works on rows 5000·t .. 5000·t + 4999: its block of the packed array is those rows (all 65 columns),
  the weight and bias windows are the whole arrays at every point, and what it writes back is rows
  5000·t .. 5000·t + 4999 of the output. Entry (p, q) of the written block is the body's value at (p, q) of the
  point's blocks, which is entry (5000·t + p, q) of `normLin`: columns below 64 of the packed block are the
  features, column 64 the degree. The twenty blocks cover the 100000 rows (row r lies in block r / 5000), so the
  array ends holding `normLin` everywhere.
-/
import proofs.«128853_j47064251629851_1_alg».proof.Proof.Gen.KernelIdeal.Value
import proofs.«128853_j47064251629851_1_alg».proof.Proof.Spec
import proofs.«128853_j47064251629851_1_alg».proof.Proof.KernelBlock
import proofs.«128853_j47064251629851_1_alg».proof.Proof.KernelHost

noncomputable section

namespace Cert.KernelIdeal.KernelValue

open Cert.KernelIdeal Cert.KernelIdeal.Gen Cert.KernelIdeal.HostValue Cert.KernelIdeal.KernelBlock
open Idealize.ShloMosaic Idealize.ShloMosaic.TcCoe Idealize.SL.Sem Idealize.ShloMosaic.ValueIdx Cert.NormLin
open Idealize.ShloMosaic.Pipeline (Dat)

variable (m : (ℓ : Loc nD τ sig) → Buf (Elt Ideal) ℓ) (ρ : Dev nD → PrngReg)

/-- The kernel's result array: the layer's output of the aggregated features and degrees of the argument arrays. -/
def result (c : Dev nD) : S100000x64.Idx → EReal :=
  normLin (agg (m ((c.tc : Thread nD τ).loc main_arg0)) (m ((c.tc : Thread nD τ).loc main_arg1)))
    (deg (m ((c.tc : Thread nD τ).loc main_arg1))) (m ((c.tc : Thread nD τ).loc main_arg2)) (m ((c.tc : Thread nD τ).loc main_arg3))

/-- The index maps over the twenty points: the block and output windows sit at block row t, the weight and bias
    windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block of any array read through its window is the array at the block's embedded indices. -/
theorem read_blk0 (X : S100000x65.Idx → EReal) (t : Fin cfg0.N) (y : S5000x65.Idx) :
    ((cfg0.win 0).blk t).view.read (Elt Ideal) X y = X (((cfg0.win 0).blk t).view.emb y) := rfl
theorem read_blk1 (X : S64x64.Idx → EReal) (t : Fin cfg0.N) (y : S64x64.Idx) :
    ((cfg0.win 1).blk t).view.read (Elt Ideal) X y = X (((cfg0.win 1).blk t).view.emb y) := rfl
theorem read_blk2 (X : S1x64.Idx → EReal) (t : Fin cfg0.N) (y : S1x64.Idx) :
    ((cfg0.win 2).blk t).view.read (Elt Ideal) X y = X (((cfg0.win 2).blk t).view.emb y) := rfl
theorem read_blk3 (X : S100000x64.Idx → EReal) (t : Fin cfg0.N) (y : S5000x64.Idx) :
    ((cfg0.win 3).blk t).view.read (Elt Ideal) X y = X (((cfg0.win 3).blk t).view.emb y) := rfl

/-- What is written back of a staging buffer's contents is the contents themselves (the output's blocks are whole). -/
theorem written_back (X : S5000x64.Idx → EReal) (t : Fin cfg0.N) (y : S5000x64.Idx) :
    (cfg0.win 3).cut (grid0.coords t) X y = X ((cfg0.win 3).xinj (grid0.coords t) y) := rfl

/-- The three input blocks at point t, entry by entry, off the arrays the windows read. -/
theorem iblk0_at (c : Dev nD) (t : Fin cfg0.N) (y : S5000x65.Idx) :
    iblk m c 0 t y = V m c main_v22 (((cfg0.win 0).blk t).view.emb y) := read_blk0 (V m c main_v22) t y
theorem iblk1_at (c : Dev nD) (t : Fin cfg0.N) (y : S64x64.Idx) :
    iblk m c 1 t y = V m c main_v23 (((cfg0.win 1).blk t).view.emb y) := read_blk1 (V m c main_v23) t y
theorem iblk2_at (c : Dev nD) (t : Fin cfg0.N) (y : S1x64.Idx) :
    iblk m c 2 t y = V m c main_v24 (((cfg0.win 2).blk t).view.emb y) := read_blk2 (V m c main_v24) t y

/-- Entry y of what the body leaves at point t is entry (5000·t + y₀, y₁) of the layer's output. -/
theorem body_entry (c : Dev nD) (t : Fin cfg0.N) (hN : t.val < 20) (y : S5000x64.Idx) :
    out0_3 (iblk m c 0 t) (iblk m c 1 t) (iblk m c 2 t) y
      = normLinAt (agg (m ((c.tc : Thread nD τ).loc main_arg0)) (m ((c.tc : Thread nD τ).loc main_arg1)))
          (deg (m ((c.tc : Thread nD τ).loc main_arg1))) (m ((c.tc : Thread nD τ).loc main_arg2)) (m ((c.tc : Thread nD τ).loc main_arg3))
          (⟨t.val * 5000 + (y 0).val, by have h : (y 0).val < 5000 := (y 0).isLt; omega⟩ : Fin 100000) (⟨(y 1).val, (y 1).isLt⟩ : Fin 64) := by
  obtain ⟨e00, e01, e10, e11, e20, e21, e30, e31⟩ := idx_facts t
  obtain ⟨p, q, rfl⟩ : ∃ (p : Fin 5000) (q : Fin 64), y = ix2 p q := ⟨y 0, y 1, eq_ix2 y⟩
  refine block_entry (V m c main_v22) (V m c main_v23) (V m c main_v24)
    (agg (m ((c.tc : Thread nD τ).loc main_arg0)) (m ((c.tc : Thread nD τ).loc main_arg1)))
    (deg (m ((c.tc : Thread nD τ).loc main_arg1))) (m ((c.tc : Thread nD τ).loc main_arg2)) (m ((c.tc : Thread nD τ).loc main_arg3))
    ?_ ?_ ?_ ?_ (iblk m c 0 t) (iblk m c 1 t) (iblk m c 2 t) t.val hN ?_ ?_ ?_ p q
  · intro r k k' hk
    rw [packed_eq]; exact packed_feature _ _ r k k' hk
  · intro r k' hk
    rw [packed_eq, packed_degree _ _ r k' hk]; exact degree_column _ r
  · intro k q'
    rw [weightT_eq]; exact weightT_at _ k q'
  · intro q'
    rw [biasRow_eq]; exact bias_row _ q'
  · intro p' k'
    rw [iblk0_at m c t]
    refine congrArg (V m c main_v22 : S100000x65.Idx → EReal) (funext fun a => Fin.ext ?_)
    match a with
    | ⟨0, _⟩ => show win0_0.index t (0 : Fin 2) * 5000 + 1 * p'.val = t.val * 5000 + p'.val; rw [e00]; omega
    | ⟨1, _⟩ => show win0_0.index t (1 : Fin 2) * 65 + 1 * k'.val = k'.val; rw [e01]; omega
  · intro k q'
    rw [iblk1_at m c t]
    refine congrArg (V m c main_v23 : S64x64.Idx → EReal) (funext fun a => Fin.ext ?_)
    match a with
    | ⟨0, _⟩ => show win0_1.index t (0 : Fin 2) * 64 + 1 * k.val = k.val; rw [e10]; omega
    | ⟨1, _⟩ => show win0_1.index t (1 : Fin 2) * 64 + 1 * q'.val = q'.val; rw [e11]; omega
  · intro q'
    rw [iblk2_at m c t]
    refine congrArg (V m c main_v24 : S1x64.Idx → EReal) (funext fun a => Fin.ext ?_)
    match a with
    | ⟨0, _⟩ => show win0_2.index t (0 : Fin 2) * 1 + 1 * 0 = 0; rw [e20]
    | ⟨1, _⟩ => show win0_2.index t (1 : Fin 2) * 64 + 1 * q'.val = q'.val; rw [e21]; omega

/-- What point t writes back is block t of `result`. -/
theorem flushed_eq (c : Dev nD) (t : Fin cfg0.N) :
    (dats m 0 c).flushed 3 t = ((cfg0.win 3).blk t).view.read (Elt Ideal) (result m c) := by
  rw [Value.flushed3]
  obtain ⟨-, -, -, -, -, -, e30, e31⟩ := idx_facts t
  have hN : t.val < 20 := by have h := t.isLt; have e : cfg0.N = 20 := N_0; omega
  have hG : ∀ i : S100000x64.Idx, result m c i
      = normLinAt (agg (m ((c.tc : Thread nD τ).loc main_arg0)) (m ((c.tc : Thread nD τ).loc main_arg1)))
          (deg (m ((c.tc : Thread nD τ).loc main_arg1))) (m ((c.tc : Thread nD τ).loc main_arg2)) (m ((c.tc : Thread nD τ).loc main_arg3)) (i 0) (i 1) := fun _ => rfl
  have hL := body_entry m c t hN
  generalize result m c = G at hG ⊢
  generalize out0_3 (iblk m c 0 t) (iblk m c 1 t) (iblk m c 2 t) = L at hL ⊢
  funext y
  refine (written_back L t y).trans (Eq.trans ?_ (read_blk3 G t y).symm)
  rw [hL, hG]
  refine congrArg₂ (normLinAt (agg (m ((c.tc : Thread nD τ).loc main_arg0)) (m ((c.tc : Thread nD τ).loc main_arg1)))
      (deg (m ((c.tc : Thread nD τ).loc main_arg1))) (m ((c.tc : Thread nD τ).loc main_arg2)) (m ((c.tc : Thread nD τ).loc main_arg3))) (Fin.ext ?_) (Fin.ext ?_)
  · show t.val * 5000 + (y 0).val = win0_3.index t (0 : Fin 2) * 5000 + 1 * (y 0).val
    rw [e30]; omega
  · show (y 1).val = win0_3.index t (1 : Fin 2) * 64 + 1 * (y 1).val
    rw [e31]; omega

/-- An index of the output array is in point t's block iff each coordinate is in the block's range. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v25).slice (win0_3.rect t)).set ↔ _
  rw [View.set_slice_whole, Rect.mem_set_unit]
  exact Iff.rfl

/-- Every index of the output array is in some point's block: row r is in block r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hlt : (i 0).val / 5000 < cfg0.N := by rw [show cfg0.N = 20 from N_0]; omega
  obtain ⟨-, -, -, -, -, -, e30, e31⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val
      ∧ (i 1).val < win0_3.index ⟨(i 0).val / 5000, hlt⟩ (1 : Fin 2) * 64 + 64
    rw [e31]; omega

/-- So the output array ends holding `result`. -/
theorem final (c : Dev nD) : (dats m 0 c).arrAt 3 cfg0.N = result m c :=
  (dats m 0 c).arrAt_eq_of_cover 3 (result m c) (fun t _ => flushed_eq m c t) cover

/-- The kernel program's run: it terminates with the result buffer at `result` and the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference program's result, read index by index, is the layer's output `normLin` of its aggregated
  features and degrees.

  Entry (r, q) of the reference is the contraction over k of
  `(agg (r, k) · (max 1 (deg r))^(-1/2)) · weightᵀ (k, q)` plus `bias q`: the scale reaches entry (r, k) through two
  broadcasts of the per-row power, the transposed weight at (k, q) is the weight at (q, k), and the bias reaches
  (r, q) through two broadcasts along the rows. The power is the reciprocal square root because the clamp keeps
  its argument at or above 1 (`scale_eq`). The aggregated features and the degrees themselves (a gather and two
  scatter-adds over the edge list) are carried as they are: both programs compute them by the same operations.
-/
import proofs.«128853_j47064251629851_1_alg».proof.Proof.Gen.ReferenceIdeal.Read
import proofs.«128853_j47064251629851_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.NormLin

/-- Where the contraction reads its left operand: row r, column k. -/
theorem lhs_at (r : Fin 100000) (q k : Fin 64) : lidx_main_v28 (ix2 r q) k = ix2 r k :=
  funext fun a => Fin.ext (by match a with | ⟨0, _⟩ => rfl | ⟨1, _⟩ => rfl)

/-- Where it reads the transposed weight, (k, q), is the weight's entry (q, k). -/
theorem rhs_at (r : Fin 100000) (q k : Fin 64) : idx_main_v27 (ridx_main_v28 (ix2 r q) k) = ix2 q k :=
  funext fun a => Fin.ext (by match a with | ⟨0, _⟩ => rfl | ⟨1, _⟩ => rfl)

/-- The broadcast scale at (r, k) is the per-row scale at r. -/
theorem scale_at (r : Fin 100000) (k : Fin 64) : idx_main_v24 (idx_main_v25 (ix2 r k)) = ix1 r :=
  funext fun a => Fin.ext (by match a with | ⟨0, _⟩ => rfl)

/-- The broadcast bias at (r, q) is the bias at q. -/
theorem bias_at (r : Fin 100000) (q : Fin 64) : idx_main_v29 (idx_main_v30 (ix2 r q)) = ix1 q :=
  funext fun a => Fin.ext (by match a with | ⟨0, _⟩ => rfl)

/-- The reference's result is `normLin` of its own aggregated features and degrees, the weight and the bias. -/
theorem result_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) :
    val_main_v31 (F := Ideal) x0 x1 x2 x3
      = normLin (val_main_v16 (F := Ideal) x0 x1) (val_main_v20 (F := Ideal) x1) x2 x3 := by
  funext i
  obtain ⟨r, q, rfl⟩ : ∃ (r : Fin 100000) (q : Fin 64), i = ix2 r q := ⟨i 0, i 1, eq_ix2 i⟩
  show _ = normLinAt _ _ _ _ r q
  unfold normLinAt
  rw [val_main_v31_apply, val_main_v28_apply, val_main_v30_apply, val_main_v29_apply, bias_at]
  refine congrArg₂ (· + ·) (Finset.sum_congr rfl fun k _ => ?_) rfl
  rw [val_main_v26_apply, val_main_v25_apply, val_main_v24_apply, val_main_v23_apply, val_main_v21_apply,
    val_main_v22_apply, val_main_cst_4_apply, val_main_call0_v1_apply, val_main_call0_v0_apply,
    val_main_cst_3_apply, val_main_v27_apply, lhs_at, rhs_at, scale_at]
  simp only [Ideal.mulf_def, Ideal.hostPowf_def, Ideal.maximumf_def, Ideal.ofBits_def]
  rw [scale_eq]

end Cert.ReferenceIdeal.RefValue

end
-- ==== Proof.SameInputs.lean ====
/-
  Both programs compute the aggregated features and the degrees by the same host operations of the same
  arguments (the edge list sliced into destinations and sources, each extended by every vertex's self loop; the
  negative-index wrap of the sources; the gather; the two scatter-adds from zero): the two terms are one.
-/
import proofs.«128853_j47064251629851_1_alg».proof.Proof.KernelHost
import proofs.«128853_j47064251629851_1_alg».proof.Proof.Gen.ReferenceIdeal.Read

noncomputable section

namespace Cert.Proof.SameInputs

open Idealize.ShloMosaic

/-- The aggregated features the kernel's program packs are the reference's. -/
theorem agg_eq (x0 : (⟨Cert.KernelIdeal.S100000x64, .f32⟩ : BufTy).Contents (Elt Ideal))
    (x1 : (⟨Cert.KernelIdeal.S2x1600000, .i32⟩ : BufTy).Contents (Elt Ideal)) :
    Cert.KernelIdeal.HostValue.agg x0 x1 = Cert.ReferenceIdeal.Read.val_main_v16 (F := Ideal) x0 x1 := rfl

/-- The degrees the kernel's program packs are the reference's. -/
theorem deg_eq (x1 : (⟨Cert.KernelIdeal.S2x1600000, .i32⟩ : BufTy).Contents (Elt Ideal)) :
    Cert.KernelIdeal.HostValue.deg x1 = Cert.ReferenceIdeal.Read.val_main_v20 (F := Ideal) x1 := rfl

end Cert.Proof.SameInputs

end
-- ==== Proof.lean ====
/-
  A graph-convolution layer on 100000 vertices with 64 features: the aggregated neighbour features (a gather by
  edge source scatter-added by edge destination, self loops included) are scaled row by row by the inverse square
  root of the clamped degree, multiplied by the transposed weight and shifted by the bias.

  The kernel's program packs the degree as a 65th column beside the features and lets a kernel, gridded over twenty
  blocks of 5000 rows, do the scaling (as a reciprocal square root), the matrix product (operands rounded to bf16,
  which is the identity on extended reals) and the bias; the reference does the same on the host with the scale
  spelt as a power with exponent -1/2. Both end with the array `normLin` (Proof/Spec.lean) of the same aggregated
  features and degrees: the kernel's by reading what each grid point writes back and covering the rows
  (Proof/KernelValue.lean), the reference's by reading its operations at an index (Proof/RefValue.lean); the two
  spellings of the scale agree because the clamp keeps its argument at or above 1. The three frames are the
  programs' runs with the results dropped; nothing was rewritten by the idealization, so `preserves` is trivial.
-/
import proofs.«128853_j47064251629851_1_alg».proof.Defs
import proofs.«128853_j47064251629851_1_alg».proof.Proof.Gen.Kernel
import proofs.«128853_j47064251629851_1_alg».proof.Proof.Gen.Kernel.Skeleton
import proofs.«128853_j47064251629851_1_alg».proof.Proof.Gen.Kernel.Launch
import proofs.«128853_j47064251629851_1_alg».proof.Proof.Gen.Kernel.Points
import proofs.«128853_j47064251629851_1_alg».proof.Proof.Gen.Kernel.Frame
import proofs.«128853_j47064251629851_1_alg».proof.Proof.Gen.KernelIdeal
import proofs.«128853_j47064251629851_1_alg».proof.Proof.Gen.KernelIdeal.Skeleton
import proofs.«128853_j47064251629851_1_alg».proof.Proof.Gen.KernelIdeal.Launch
import proofs.«128853_j47064251629851_1_alg».proof.Proof.Gen.KernelIdeal.Points
import proofs.«128853_j47064251629851_1_alg».proof.Proof.Gen.KernelIdeal.Frame
import proofs.«128853_j47064251629851_1_alg».proof.Proof.Gen.ReferenceIdeal
import proofs.«128853_j47064251629851_1_alg».proof.Proof.Gen.KernelIdeal.Value
import proofs.«128853_j47064251629851_1_alg».proof.Proof.Gen.ReferenceIdeal.Run
import proofs.«128853_j47064251629851_1_alg».proof.Proof.Gen.ReferenceIdeal.Read
import proofs.«128853_j47064251629851_1_alg».proof.Proof.Gen.Pre_finite_inputs
import proofs.«128853_j47064251629851_1_alg».proof.Proof.KernelValue
import proofs.«128853_j47064251629851_1_alg».proof.Proof.RefValue
import proofs.«128853_j47064251629851_1_alg».proof.Proof.SameInputs
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the layer's output of the same
    aggregated features and degrees. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq,
    (hagree c).1, (hagree c).2.1, (hagree c).2.2.1, (hagree c).2.2.2]
  show _ = Cert.KernelIdeal.KernelValue.result m c
  unfold Cert.KernelIdeal.KernelValue.result
  rw [SameInputs.agg_eq, SameInputs.deg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
